-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S1024x1024 : Shape := ⟨2, ![1024, 1024]⟩
abbrev S64x1024x1024 : Shape := ⟨3, ![64, 1024, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_

variable [Facts]

def fn_part1 {F : FTy → Type} [FloatOps F] (main_arg4 : FVec F S64x1024x1024 .f32) (main_arg5 : FVec F S64x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64x1024x1024 .f32 := Host.absf main_arg4
  let main_cst_6 : FVec F S_ .f32 := constant S_ .f32 0x7F800000#32
  let main_v20 : FVec F S64x1024x1024 .f32 := broadcastInDim S64x1024x1024 ![] bcast_S_S64x1024x1024 main_cst_6
  let main_v21 : IVec S64x1024x1024 1 := cmpf .olt main_v19 main_v20
  let main_c_7 : IVec S_ 1 := constantI S_ 1 1#1
  let main_v22 : IVec S_ 1 := (fun x v => Host.reduce IntOp.andi x v reducesTo_S64x1024x1024_S_d0_1_2 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S64x1024 .f32) (main_arg1 : FVec F S1024x1024 .f32) (main_arg2 : FVec F S1024x1024 .f32) (main_arg3 : FVec F S64x1024 .f32) (main_arg4 : FVec F S64x1024x1024 .f32) (main_arg5 : FVec F S64x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_v13 main_v16
-- ==== Kernel.lean ====
abbrev S64x1024 : Shape := ⟨2, ![64, 1024]⟩
abbrev S1024x1024 : Shape := ⟨2, ![1024, 1024]⟩
abbrev S64x1024x1024 : Shape := ⟨3, ![64, 1024, 1024]⟩
abbrev S8x1024 : Shape := ⟨2, ![8, 1024]⟩
abbrev S128x1024 : Shape := ⟨2, ![128, 1024]⟩
abbrev S8x128 : Shape := ⟨2, ![8, 128]⟩
abbrev S8x128x1024 : Shape := ⟨3, ![8, 128, 1024]⟩
abbrev S1x128x1024 : Shape := ⟨3, ![1, 128, 1024]⟩
abbrev S8x1x1024 : Shape := ⟨3, ![8, 1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024x1024, .f32⟩
  | .hbm, ⟨3, _⟩ => ⟨S64x1024, .f32⟩
  | .hbm, ⟨4, _⟩ => ⟨S64x1024x1024, .f32⟩
  | .hbm, ⟨5, _⟩ => ⟨S64x1024, .f32⟩
  | .hbm, ⟨6, _⟩ => ⟨S64x1024, .f32⟩
  | .hbm, ⟨7, _⟩ => ⟨S64x1024x1024, .f32⟩
  | .hbm, ⟨8, _⟩ => ⟨S64x1024, .f32⟩
  | .local _ .vmem, ⟨0, _⟩ => ⟨S8x1024, .f32⟩
  | .local _ .vmem, ⟨1, _⟩ => ⟨S8x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128, .f32⟩
  | .local _ .vmem, ⟨7, _⟩ => ⟨S8x128, .f32⟩
  | .local _ .vmem, ⟨8, _⟩ => ⟨S8x128x1024, .f32⟩
  | .local _ .vmem, ⟨9, _⟩ => ⟨S8x128x1024, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128x1024, .f32⟩
  | .local _ .vmem, ⟨15, _⟩ => ⟨S8x128x1024, .f32⟩
  | .local _ .vmem, ⟨16, _⟩ => ⟨S8x128, .f32⟩
  | .local _ .vmem, ⟨17, _⟩ => ⟨S8x128, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S128x1024_S128x1024_0_0 : ∀ a, (![0, 0] : Fin 2 → Nat) a + S128x1024.size a ≤ S128x1024.size a
  h_S128x1024 : 0 < S128x1024.numel
  inb_S8x1024_S8x1024_0_0 : ∀ a, (![0, 0] : Fin 2 → Nat) a + S8x1024.size a ≤ S8x1024.size a
  h_S8x1024 : 0 < S8x1024.numel
  inb_S8x128x1024_S8x128x1024_0_0_0 : ∀ a, (![0, 0, 0] : Fin 3 → Nat) a + S8x128x1024.size a ≤ S8x128x1024.size a
  h_S8x128x1024 : 0 < S8x128x1024.numel
  shapeCasts_S128x1024_S1x128x1024 : S128x1024.ShapeCasts S1x128x1024
  shapeCasts_S8x1024_S8x1x1024 : S8x1024.ShapeCasts S8x1x1024
  broadcasts_S1x128x1024_S8x128x1024 : S1x128x1024.Broadcasts S8x128x1024
  broadcasts_S8x1x1024_S8x128x1024 : S8x1x1024.Broadcasts S8x128x1024
  reduces_S8x128x1024_S8x128 : S8x128x1024.Reduces [2] S8x128
  inb_S8x128_S8x128_0_0 : ∀ a, (![0, 0] : Fin 2 → Nat) a + S8x128.size a ≤ S8x128.size a
  h_S8x128 : 0 < S8x128.numel
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S64x1024.size a
  hwx0_0 : ∀ i : grid0.Coords, EltTy.bits .f32 = 32 ∨ (Rect.block (s := S64x1024) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S1024x1024.size a
  hwx0_1 : ∀ i : grid0.Coords, EltTy.bits .f32 = 32 ∨ (Rect.block (s := S1024x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x1024.size a
  hwx0_3 : ∀ i : grid0.Coords, EltTy.bits .f32 = 32 ∨ (Rect.block (s := S64x1024) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x1024.size a ≤ S64x1024x1024.size a
  hwx0_4 : ∀ i : grid0.Coords, EltTy.bits .f32 = 32 ∨ (Rect.block (s := S64x1024x1024) S8x128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x1024.size a
  hwx0_5 : ∀ i : grid0.Coords, EltTy.bits .f32 = 32 ∨ (Rect.block (s := S64x1024) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S64x1024.size a
  hwx0_6 : ∀ i : grid0.Coords, EltTy.bits .f32 = 32 ∨ (Rect.block (s := S64x1024) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x1024.size a ≤ S64x1024x1024.size a
  hwx0_7 : ∀ i : grid0.Coords, EltTy.bits .f32 = 32 ∨ (Rect.block (s := S64x1024x1024) S8x128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S64x1024.size a
  hwx0_8 : ∀ i : grid0.Coords, EltTy.bits .f32 = 32 ∨ (Rect.block (s := S64x1024) S8x128.size (cc0_transform_8 i) (hinb0_8 i)).WholeWords (EltTy.packing .f32)

variable [Facts₀]

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S8x128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x1024 : Shape := ⟨2, ![64, 1024]⟩
abbrev S1024x1024 : Shape := ⟨2, ![1024, 1024]⟩
abbrev S64x1024x1024 : Shape := ⟨3, ![64, 1024, 1024]⟩
abbrev S1x1024x1024 : Shape := ⟨3, ![1, 1024, 1024]⟩
abbrev S64x1x1024 : Shape := ⟨3, ![64, 1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024x1024, .f32⟩
  | .hbm, ⟨3, _⟩ => ⟨S64x1024, .f32⟩
  | .hbm, ⟨4, _⟩ => ⟨S64x1024x1024, .f32⟩
  | .hbm, ⟨5, _⟩ => ⟨S64x1024, .f32⟩
  | .hbm, ⟨6, _⟩ => ⟨S1x1024x1024, .f32⟩
  | .hbm, ⟨7, _⟩ => ⟨S64x1024x1024, .f32⟩
  | .hbm, ⟨8, _⟩ => ⟨S64x1024x1024, .f32⟩
  | .hbm, ⟨9, _⟩ => ⟨S1x1024x1024, .f32⟩
  | .hbm, ⟨10, _⟩ => ⟨S64x1x1024, .f32⟩
  | .hbm, ⟨11, _⟩ => ⟨S64x1024x1024, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S_, .f32⟩
  | .hbm, ⟨16, _⟩ => ⟨S64x1024, .f32⟩
  | .hbm, ⟨17, _⟩ => ⟨S_, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S_, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S_, .f32⟩
  | .hbm, ⟨26, _⟩ => ⟨S64x1024, .f32⟩
  | .hbm, ⟨27, _⟩ => ⟨S64x1024, .f32⟩
  | .hbm, ⟨28, _⟩ => ⟨S_, .f32⟩
  | .hbm, ⟨29, _⟩ => ⟨S64x1024, .f32⟩
  | .hbm, ⟨30, _⟩ => ⟨S64x1024, .i1⟩
  | .hbm, ⟨31, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)

variable [Facts₀]

class Facts : Prop extends Facts₀ where

variable [Facts]
-- ==== Proof.CellGrid.lean ====
/-
  The tiling of the cell step. The 64 grid points are the pairs (tile of 128 cells, tile of 8 inputs). At a point the
  blocks of the spikes, of both refractory arrays and of the previous spikes hold 8 inputs × 128 cells; the blocks of
  the old and new synaptic currents hold those inputs and cells with all 1024 synapses; the blocks of the weights and
  of the decay factors hold the 128 cells with all synapses; the block of the inputs holds the 8 inputs with all
  synapses. `row t p` is the input, and `cell t q` the cell, that position (p, q) of a block stands for at point `t`;
  every input and cell is reached from exactly the point of its two tiles, so the blocks of each result cover it.
-/
import proofs.«116201_j59399397704145_2_alg».proof.Proof.Gen.KernelIdeal.Value
import Idealize.ShloMosaic.Lib.ValueIdx

noncomputable section

namespace Cert.KernelIdeal.CellValue

open Cert.KernelIdeal Cert.KernelIdeal.Gen Idealize.ShloMosaic Idealize.ShloMosaic.TcCoe Idealize.SL.Sem
open Idealize.ShloMosaic.ValueIdx

/-- How the nine windows move over the grid, decided point by point: every block index is the input tile, the cell
    tile, or zero on an axis taken whole, and both tiles stay below 8. -/
theorem grid_facts : ∀ t : Fin cfg0.N,
    win0_0.index t (0 : Fin 2) = win0_7.index t (0 : Fin 3) ∧ win0_0.index t (1 : Fin 2) = 0
    ∧ win0_1.index t (0 : Fin 2) = win0_7.index t (1 : Fin 3) ∧ win0_1.index t (1 : Fin 2) = 0
    ∧ win0_2.index t (0 : Fin 2) = win0_7.index t (1 : Fin 3) ∧ win0_2.index t (1 : Fin 2) = 0
    ∧ win0_3.index t (0 : Fin 2) = win0_7.index t (0 : Fin 3) ∧ win0_3.index t (1 : Fin 2) = win0_7.index t (1 : Fin 3)
    ∧ win0_4.index t (0 : Fin 3) = win0_7.index t (0 : Fin 3) ∧ win0_4.index t (1 : Fin 3) = win0_7.index t (1 : Fin 3)
    ∧ win0_4.index t (2 : Fin 3) = 0
    ∧ win0_5.index t (0 : Fin 2) = win0_7.index t (0 : Fin 3) ∧ win0_5.index t (1 : Fin 2) = win0_7.index t (1 : Fin 3)
    ∧ win0_6.index t (0 : Fin 2) = win0_7.index t (0 : Fin 3) ∧ win0_6.index t (1 : Fin 2) = win0_7.index t (1 : Fin 3)
    ∧ win0_8.index t (0 : Fin 2) = win0_7.index t (0 : Fin 3) ∧ win0_8.index t (1 : Fin 2) = win0_7.index t (1 : Fin 3)
    ∧ win0_7.index t (2 : Fin 3) = 0
    ∧ win0_7.index t (0 : Fin 3) ≤ 7 ∧ win0_7.index t (1 : Fin 3) ≤ 7 :=
  (by decide +kernel : ∀ t : Fin grid0.N, _)

/-- Every pair of an input tile and a cell tile is some point's. -/
theorem grid_onto : ∀ (a b : Fin 8), ∃ t : Fin cfg0.N,
    win0_7.index t (0 : Fin 3) = a.val ∧ win0_7.index t (1 : Fin 3) = b.val :=
  (by decide +kernel : ∀ (a b : Fin 8), ∃ t : Fin grid0.N, win0_7.index t (0 : Fin 3) = a.val ∧ win0_7.index t (1 : Fin 3) = b.val)

/-- The input that row `p` of a block stands for at point `t`. -/
def row (t : Fin cfg0.N) (p : Fin 8) : Fin 64 :=
  ⟨win0_7.index t (0 : Fin 3) * 8 + p.val, by
    have h := (grid_facts t).2.2.2.2.2.2.2.2.2.2.2.2.2.2.2.2.2.2.1
    have hp := p.isLt
    omega⟩

/-- The cell that column `q` of a block stands for at point `t`. -/
def cell (t : Fin cfg0.N) (q : Fin 128) : Fin 1024 :=
  ⟨win0_7.index t (1 : Fin 3) * 128 + q.val, by
    have h := (grid_facts t).2.2.2.2.2.2.2.2.2.2.2.2.2.2.2.2.2.2.2
    have hq := q.isLt
    omega⟩

theorem row_val (t : Fin cfg0.N) (p : Fin 8) : (row t p).val = win0_7.index t (0 : Fin 3) * 8 + p.val := rfl
theorem cell_val (t : Fin cfg0.N) (q : Fin 128) : (cell t q).val = win0_7.index t (1 : Fin 3) * 128 + q.val := rfl

/-! ## A block position as an input, a cell and a synapse of the whole arrays -/

theorem emb0 (t : Fin cfg0.N) (p : Fin 8) (i : Fin 1024) :
    ((cfg0.win 0).blk t).view.emb (ix2 p i) = ix2 (row t p) i := by
  obtain ⟨f00, f01, f10, f11, f20, f21, f30, f31, f40, f41, f42, f50, f51, f60, f61, f80, f81, f72, b0, b1⟩ := grid_facts t
  funext a; apply Fin.ext
  match a with
  | ⟨0, _⟩ => show win0_0.index t (0 : Fin 2) * 8 + 1 * p.val = win0_7.index t (0 : Fin 3) * 8 + p.val; omega
  | ⟨1, _⟩ => show win0_0.index t (1 : Fin 2) * 1024 + 1 * i.val = i.val; omega

theorem emb1 (t : Fin cfg0.N) (q : Fin 128) (i : Fin 1024) :
    ((cfg0.win 1).blk t).view.emb (ix2 q i) = ix2 (cell t q) i := by
  obtain ⟨f00, f01, f10, f11, f20, f21, f30, f31, f40, f41, f42, f50, f51, f60, f61, f80, f81, f72, b0, b1⟩ := grid_facts t
  funext a; apply Fin.ext
  match a with
  | ⟨0, _⟩ => show win0_1.index t (0 : Fin 2) * 128 + 1 * q.val = win0_7.index t (1 : Fin 3) * 128 + q.val; omega
  | ⟨1, _⟩ => show win0_1.index t (1 : Fin 2) * 1024 + 1 * i.val = i.val; omega

theorem emb2 (t : Fin cfg0.N) (q : Fin 128) (i : Fin 1024) :
    ((cfg0.win 2).blk t).view.emb (ix2 q i) = ix2 (cell t q) i := by
  obtain ⟨f00, f01, f10, f11, f20, f21, f30, f31, f40, f41, f42, f50, f51, f60, f61, f80, f81, f72, b0, b1⟩ := grid_facts t
  funext a; apply Fin.ext
  match a with
  | ⟨0, _⟩ => show win0_2.index t (0 : Fin 2) * 128 + 1 * q.val = win0_7.index t (1 : Fin 3) * 128 + q.val; omega
  | ⟨1, _⟩ => show win0_2.index t (1 : Fin 2) * 1024 + 1 * i.val = i.val; omega

theorem emb3 (t : Fin cfg0.N) (p : Fin 8) (q : Fin 128) :
    ((cfg0.win 3).blk t).view.emb (ix2 p q) = ix2 (row t p) (cell t q) := by
  obtain ⟨f00, f01, f10, f11, f20, f21, f30, f31, f40, f41, f42, f50, f51, f60, f61, f80, f81, f72, b0, b1⟩ := grid_facts t
  funext a; apply Fin.ext
  match a with
  | ⟨0, _⟩ => show win0_3.index t (0 : Fin 2) * 8 + 1 * p.val = win0_7.index t (0 : Fin 3) * 8 + p.val; omega
  | ⟨1, _⟩ => show win0_3.index t (1 : Fin 2) * 128 + 1 * q.val = win0_7.index t (1 : Fin 3) * 128 + q.val; omega

theorem emb4 (t : Fin cfg0.N) (p : Fin 8) (q : Fin 128) (i : Fin 1024) :
    ((cfg0.win 4).blk t).view.emb (ix3 p q i) = ix3 (row t p) (cell t q) i := by
  obtain ⟨f00, f01, f10, f11, f20, f21, f30, f31, f40, f41, f42, f50, f51, f60, f61, f80, f81, f72, b0, b1⟩ := grid_facts t
  funext a; apply Fin.ext
  match a with
  | ⟨0, _⟩ => show win0_4.index t (0 : Fin 3) * 8 + 1 * p.val = win0_7.index t (0 : Fin 3) * 8 + p.val; omega
  | ⟨1, _⟩ => show win0_4.index t (1 : Fin 3) * 128 + 1 * q.val = win0_7.index t (1 : Fin 3) * 128 + q.val; omega
  | ⟨2, _⟩ => show win0_4.index t (2 : Fin 3) * 1024 + 1 * i.val = i.val; omega

theorem emb5 (t : Fin cfg0.N) (p : Fin 8) (q : Fin 128) :
    ((cfg0.win 5).blk t).view.emb (ix2 p q) = ix2 (row t p) (cell t q) := by
  obtain ⟨f00, f01, f10, f11, f20, f21, f30, f31, f40, f41, f42, f50, f51, f60, f61, f80, f81, f72, b0, b1⟩ := grid_facts t
  funext a; apply Fin.ext
  match a with
  | ⟨0, _⟩ => show win0_5.index t (0 : Fin 2) * 8 + 1 * p.val = win0_7.index t (0 : Fin 3) * 8 + p.val; omega
  | ⟨1, _⟩ => show win0_5.index t (1 : Fin 2) * 128 + 1 * q.val = win0_7.index t (1 : Fin 3) * 128 + q.val; omega

theorem emb6 (t : Fin cfg0.N) (p : Fin 8) (q : Fin 128) :
    ((cfg0.win 6).blk t).view.emb (ix2 p q) = ix2 (row t p) (cell t q) := by
  obtain ⟨f00, f01, f10, f11, f20, f21, f30, f31, f40, f41, f42, f50, f51, f60, f61, f80, f81, f72, b0, b1⟩ := grid_facts t
  funext a; apply Fin.ext
  match a with
  | ⟨0, _⟩ => show win0_6.index t (0 : Fin 2) * 8 + 1 * p.val = win0_7.index t (0 : Fin 3) * 8 + p.val; omega
  | ⟨1, _⟩ => show win0_6.index t (1 : Fin 2) * 128 + 1 * q.val = win0_7.index t (1 : Fin 3) * 128 + q.val; omega

theorem emb7 (t : Fin cfg0.N) (p : Fin 8) (q : Fin 128) (i : Fin 1024) :
    ((cfg0.win 7).blk t).view.emb (ix3 p q i) = ix3 (row t p) (cell t q) i := by
  obtain ⟨f00, f01, f10, f11, f20, f21, f30, f31, f40, f41, f42, f50, f51, f60, f61, f80, f81, f72, b0, b1⟩ := grid_facts t
  funext a; apply Fin.ext
  match a with
  | ⟨0, _⟩ => show win0_7.index t (0 : Fin 3) * 8 + 1 * p.val = win0_7.index t (0 : Fin 3) * 8 + p.val; omega
  | ⟨1, _⟩ => show win0_7.index t (1 : Fin 3) * 128 + 1 * q.val = win0_7.index t (1 : Fin 3) * 128 + q.val; omega
  | ⟨2, _⟩ => show win0_7.index t (2 : Fin 3) * 1024 + 1 * i.val = i.val; omega

theorem emb8 (t : Fin cfg0.N) (p : Fin 8) (q : Fin 128) :
    ((cfg0.win 8).blk t).view.emb (ix2 p q) = ix2 (row t p) (cell t q) := by
  obtain ⟨f00, f01, f10, f11, f20, f21, f30, f31, f40, f41, f42, f50, f51, f60, f61, f80, f81, f72, b0, b1⟩ := grid_facts t
  funext a; apply Fin.ext
  match a with
  | ⟨0, _⟩ => show win0_8.index t (0 : Fin 2) * 8 + 1 * p.val = win0_7.index t (0 : Fin 3) * 8 + p.val; omega
  | ⟨1, _⟩ => show win0_8.index t (1 : Fin 2) * 128 + 1 * q.val = win0_7.index t (1 : Fin 3) * 128 + q.val; omega

/-! ## The blocks of each result cover it -/

/-- An index of the array lies in point `t`'s block iff each coordinate lies in the block's range on its axis. -/
theorem mem_blk6 (t : Fin cfg0.N) (n : S64x1024.Idx) :
    n ∈ ((cfg0.win 6).blk t).view.set ↔ ∀ a : Fin 2, win0_6.index t a * S8x128.size a ≤ (n a).val ∧ (n a).val < win0_6.index t a * S8x128.size a + S8x128.size a := by
  show n ∈ ((View.whole main_v0_0).slice (win0_6.rect t)).set ↔ _
  rw [View.set_slice_whole, Rect.mem_set_unit]
  exact Iff.rfl

/-- Every input and cell lies in the block of the point of their two tiles. -/
theorem cover6 (n : S64x1024.Idx) : ∃ t : Fin cfg0.N, (cfg0.win 6).flush t = true ∧ n ∈ ((cfg0.win 6).blk t).view.set := by
  have h0 : (n 0).val < 64 := (n 0).isLt
  have h1 : (n 1).val < 1024 := (n 1).isLt
  obtain ⟨t, ha, hb⟩ := grid_onto ⟨(n 0).val / 8, by omega⟩ ⟨(n 1).val / 128, by omega⟩
  have ha' : win0_7.index t (0 : Fin 3) = (n 0).val / 8 := ha
  have hb' : win0_7.index t (1 : Fin 3) = (n 1).val / 128 := hb
  obtain ⟨f00, f01, f10, f11, f20, f21, f30, f31, f40, f41, f42, f50, f51, f60, f61, f80, f81, f72, b0, b1⟩ := grid_facts t
  refine ⟨t, flush0_6 t, ?_⟩
  rw [mem_blk6]
  intro a
  match a with
  | ⟨0, _⟩ => show win0_6.index t (0 : Fin 2) * 8 ≤ (n 0).val ∧ (n 0).val < win0_6.index t (0 : Fin 2) * 8 + 8; omega
  | ⟨1, _⟩ => show win0_6.index t (1 : Fin 2) * 128 ≤ (n 1).val ∧ (n 1).val < win0_6.index t (1 : Fin 2) * 128 + 128; omega

/-- An index of the array lies in point `t`'s block iff each coordinate lies in the block's range on its axis. -/
theorem mem_blk8 (t : Fin cfg0.N) (n : S64x1024.Idx) :
    n ∈ ((cfg0.win 8).blk t).view.set ↔ ∀ a : Fin 2, win0_8.index t a * S8x128.size a ≤ (n a).val ∧ (n a).val < win0_8.index t a * S8x128.size a + S8x128.size a := by
  show n ∈ ((View.whole main_v0_2).slice (win0_8.rect t)).set ↔ _
  rw [View.set_slice_whole, Rect.mem_set_unit]
  exact Iff.rfl

/-- Every input and cell lies in the block of the point of their two tiles. -/
theorem cover8 (n : S64x1024.Idx) : ∃ t : Fin cfg0.N, (cfg0.win 8).flush t = true ∧ n ∈ ((cfg0.win 8).blk t).view.set := by
  have h0 : (n 0).val < 64 := (n 0).isLt
  have h1 : (n 1).val < 1024 := (n 1).isLt
  obtain ⟨t, ha, hb⟩ := grid_onto ⟨(n 0).val / 8, by omega⟩ ⟨(n 1).val / 128, by omega⟩
  have ha' : win0_7.index t (0 : Fin 3) = (n 0).val / 8 := ha
  have hb' : win0_7.index t (1 : Fin 3) = (n 1).val / 128 := hb
  obtain ⟨f00, f01, f10, f11, f20, f21, f30, f31, f40, f41, f42, f50, f51, f60, f61, f80, f81, f72, b0, b1⟩ := grid_facts t
  refine ⟨t, flush0_8 t, ?_⟩
  rw [mem_blk8]
  intro a
  match a with
  | ⟨0, _⟩ => show win0_8.index t (0 : Fin 2) * 8 ≤ (n 0).val ∧ (n 0).val < win0_8.index t (0 : Fin 2) * 8 + 8; omega
  | ⟨1, _⟩ => show win0_8.index t (1 : Fin 2) * 128 ≤ (n 1).val ∧ (n 1).val < win0_8.index t (1 : Fin 2) * 128 + 128; omega

/-- An index of the array lies in point `t`'s block iff each coordinate lies in the block's range on its axis. -/
theorem mem_blk7 (t : Fin cfg0.N) (n : S64x1024x1024.Idx) :
    n ∈ ((cfg0.win 7).blk t).view.set ↔ ∀ a : Fin 3, win0_7.index t a * S8x128x1024.size a ≤ (n a).val ∧ (n a).val < win0_7.index t a * S8x128x1024.size a + S8x128x1024.size a := by
  show n ∈ ((View.whole main_v0_1).slice (win0_7.rect t)).set ↔ _
  rw [View.set_slice_whole, Rect.mem_set_unit]
  exact Iff.rfl

/-- Every input, cell and synapse lies in the block of the point of the input's and the cell's tiles. -/
theorem cover7 (n : S64x1024x1024.Idx) : ∃ t : Fin cfg0.N, (cfg0.win 7).flush t = true ∧ n ∈ ((cfg0.win 7).blk t).view.set := by
  have h0 : (n 0).val < 64 := (n 0).isLt
  have h1 : (n 1).val < 1024 := (n 1).isLt
  have h2 : (n 2).val < 1024 := (n 2).isLt
  obtain ⟨t, ha, hb⟩ := grid_onto ⟨(n 0).val / 8, by omega⟩ ⟨(n 1).val / 128, by omega⟩
  have ha' : win0_7.index t (0 : Fin 3) = (n 0).val / 8 := ha
  have hb' : win0_7.index t (1 : Fin 3) = (n 1).val / 128 := hb
  obtain ⟨f00, f01, f10, f11, f20, f21, f30, f31, f40, f41, f42, f50, f51, f60, f61, f80, f81, f72, b0, b1⟩ := grid_facts t
  refine ⟨t, flush0_7 t, ?_⟩
  rw [mem_blk7]
  intro a
  match a with
  | ⟨0, _⟩ => show win0_7.index t (0 : Fin 3) * 8 ≤ (n 0).val ∧ (n 0).val < win0_7.index t (0 : Fin 3) * 8 + 8; omega
  | ⟨1, _⟩ => show win0_7.index t (1 : Fin 3) * 128 ≤ (n 1).val ∧ (n 1).val < win0_7.index t (1 : Fin 3) * 128 + 128; omega
  | ⟨2, _⟩ => show win0_7.index t (2 : Fin 3) * 1024 ≤ (n 2).val ∧ (n 2).val < win0_7.index t (2 : Fin 3) * 1024 + 1024; omega

end Cert.KernelIdeal.CellValue

end
-- ==== Proof.Cell.lean ====
/-
  One step of a layer of 1024 spiking cells, each fed through 1024 synapses, for a batch of 64 inputs, read over the
  extended reals.

  Synapse `i` of cell `j` carries a current that decays by the synapse's own factor `ρ(j, i)` and is raised by the
  weighted input:
      I(b, j, i) = ρ(j, i) · s(b, j, i) + w(j, i) · x(b, i).
  A cell's refractory current decays by one common factor `γ` and is raised by the cell's previous spike:
      R(b, j) = γ · r(b, j) + z(b, j).
  The cell fires when what its synapses deliver, less the refractory current, reaches the threshold:
      fires(b, j) = 1 if (Σ_i I(b, j, i)) − θ · R(b, j) − θ ≥ 0, else 0.
  The factor `γ`, the threshold `θ` and the zero the potential is compared with are kept as the float words that
  stand in the programs: the same word stands on both sides, so nothing here depends on the numbers they denote.
-/
import Idealize.ShloMosaic.PureOps.Ideal
import Idealize.ShloMosaic.Lib.ValueIdx

noncomputable section

open scoped BigOperators

namespace Cert.Cell

open Idealize.ShloMosaic Idealize.ShloMosaic.ValueIdx

/-- Indexed by input and cell. -/
abbrev PerCell : Shape := ⟨2, ![64, 1024]⟩
/-- Indexed by cell and synapse. -/
abbrev PerSynapse : Shape := ⟨2, ![1024, 1024]⟩
/-- Indexed by input, cell and synapse. -/
abbrev PerInputSynapse : Shape := ⟨3, ![64, 1024, 1024]⟩

/-- The refractory current's decay factor, as the float word both programs carry. -/
abbrev γ : EReal := Ideal.ofBits .f32 0x3F7383C6#32
/-- The firing threshold (it also scales the refractory current), as the float word both programs carry. -/
abbrev θ : EReal := Ideal.ofBits .f32 0x3F800000#32
/-- What the shifted potential is compared with, as the float word both programs carry. -/
abbrev level : EReal := Ideal.ofBits .f32 0x00000000#32

variable (x : PerCell.Idx → EReal) (w ρ : PerSynapse.Idx → EReal) (z r : PerCell.Idx → EReal)
  (s : PerInputSynapse.Idx → EReal)

/-- The new current of synapse `i` of cell `j` for input `b`: the old one decayed, plus the weighted input. -/
def currentAt (b : Fin 64) (j i : Fin 1024) : EReal :=
  ρ (ix2 j i) * s (ix3 b j i) + w (ix2 j i) * x (ix2 b i)

/-- The synaptic currents as one array. -/
def current : PerInputSynapse.Idx → EReal := fun n => currentAt x w ρ s (n 0) (n 1) (n 2)

/-- The new refractory currents: the old ones decayed, plus the previous spikes. -/
def refractory : PerCell.Idx → EReal := fun n => γ * r n + z n

/-- Whether cell `j` fires for input `b`, as the number one or zero: its synapses' currents summed, less the scaled
    refractory current and the threshold, compared with the level. -/
def fireAt (b : Fin 64) (j : Fin 1024) : EReal :=
  (((Ideal.cmp .oge ((∑ i : Fin 1024, currentAt x w ρ s b j i) - θ * refractory z r (ix2 b j) - θ) level).toNat : ℝ) : EReal)

/-- The spikes as one array. -/
def fire : PerCell.Idx → EReal := fun n => fireAt x w ρ z r s (n 0) (n 1)

theorem current_ix3 (b : Fin 64) (j i : Fin 1024) : current x w ρ s (ix3 b j i) = currentAt x w ρ s b j i := rfl

theorem fire_ix2 (b : Fin 64) (j : Fin 1024) : fire x w ρ z r s (ix2 b j) = fireAt x w ρ z r s b j := rfl

/-- A one-bit flag widened with zeros to 32 bits and read as a signed integer is the flag read as an unsigned one:
    zero or one either way. -/
theorem flag_signed_eq_unsigned (b : BitVec 1) : (((b.setWidth 32).toInt : ℝ) : EReal) = ((b.toNat : ℝ) : EReal) := by
  rcases BitVec.eq_zero_or_eq_one b with h | h <;> subst h <;> norm_num

end Cert.Cell

end
-- ==== Proof.CellBody.lean ====
/-
  What the kernel's body leaves in its three output blocks, position by position, from the blocks it loads.

  Each output block is written by one store of the whole block, and every load reads a whole block, so an output
  block is the body's arithmetic applied to the input blocks. The block of synaptic currents at (p, q, i) is
  ρ(q, i) · s(p, q, i) + w(q, i) · x(p, i): the decay factors and the weights are spread over the 8 inputs of the
  block and the inputs over its 128 cells. The block of refractory currents is pointwise. The block of spikes at
  (p, q) sums the currents at (p, q, ·) along the synapse axis — over the extended reals a sum along one axis started
  from zero is the plain finite sum —, subtracts the scaled refractory current and the threshold, compares with the
  level, widens the one-bit outcome with zeros and reads it as a signed integer: the outcome read as an unsigned one.
-/
import proofs.«116201_j59399397704145_2_alg».proof.Proof.Gen.KernelIdeal.Value
import proofs.«116201_j59399397704145_2_alg».proof.Proof.Cell
import Idealize.ShloMosaic.Lib.ValueIdx
import Idealize.ShloMosaic.PureOps.Ideal.Laws

noncomputable section

open scoped BigOperators

namespace Cert.KernelIdeal.CellBody

open Cert.KernelIdeal Cert.KernelIdeal.Gen Idealize.ShloMosaic Idealize.ShloMosaic.TcCoe Idealize.SL.Sem
open Idealize.ShloMosaic.ValueIdx Cert.Cell

section AnyFloats

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- The block of new synaptic currents is the body's first payload of the loaded blocks. -/
theorem out7_eq (x0 : Vec F S8x1024 .f32) (x1 x2 : Vec F S128x1024 .f32) (x3 : Vec F S8x128 .f32)
    (x4 : Vec F S8x128x1024 .f32) (x5 : Vec F S8x128 .f32) : out0_7 x0 x1 x2 x3 x4 x5 = k0_pay1 x1 x2 x0 x4 := by
  unfold out0_7
  rw [View.canon_unit_zero off3]
  simp only [View.ld_unit_zero (S := S128x1024) off2, View.ld_unit_zero (S := S8x1024) off2,
    View.ld_unit_zero (S := S8x128x1024) off3]

/-- The block of new refractory currents is the body's second payload of the loaded blocks. -/
theorem out8_eq (x0 : Vec F S8x1024 .f32) (x1 x2 : Vec F S128x1024 .f32) (x3 : Vec F S8x128 .f32)
    (x4 : Vec F S8x128x1024 .f32) (x5 : Vec F S8x128 .f32) : out0_8 x0 x1 x2 x3 x4 x5 = k0_pay2 x3 x5 := by
  unfold out0_8
  rw [View.canon_unit_zero off2]
  simp only [View.ld_unit_zero (S := S8x128) off2]

/-- The block of spikes is the body's third payload of the loaded blocks. -/
theorem out6_eq (x0 : Vec F S8x1024 .f32) (x1 x2 : Vec F S128x1024 .f32) (x3 : Vec F S8x128 .f32)
    (x4 : Vec F S8x128x1024 .f32) (x5 : Vec F S8x128 .f32) : out0_6 x0 x1 x2 x3 x4 x5 = k0_pay3 x1 x2 x0 x4 x3 x5 := by
  unfold out0_6
  rw [View.canon_unit_zero off2]
  simp only [View.ld_unit_zero (S := S128x1024) off2, View.ld_unit_zero (S := S8x1024) off2,
    View.ld_unit_zero (S := S8x128x1024) off3, View.ld_unit_zero (S := S8x128) off2]

/-- The first payload at (p, q, i): the factors and weights are read at (q, i), the inputs at (p, i). -/
theorem current_at (v0 v1 : Vec F S128x1024 .f32) (v2 : Vec F S8x1024 .f32) (v3 : Vec F S8x128x1024 .f32)
    (p : Fin 8) (q : Fin 128) (i : Fin 1024) :
    k0_pay1 v0 v1 v2 v3 (ix3 p q i)
      = FloatOps.addf (FloatOps.mulf (v1 (ix2 q i)) (v3 (ix3 p q i))) (FloatOps.mulf (v0 (ix2 q i)) (v2 (ix2 p i))) := by
  refine (Value.piece7_0 v1 v3 v0 v2 (ix3 p q i)).trans ?_
  have e0 : Value.ix7_0 (r0_2.idx (ix3 p q i)) = ix2 q i := funext fun a => Fin.ext (by
    match a with
    | ⟨0, _⟩ => show 0 + 1 * q.val = q.val; omega
    | ⟨1, _⟩ => show 0 + 1 * i.val = i.val; omega)
  have e1 : Value.ix7_1 (r0_2.idx (ix3 p q i)) = ix3 p q i := funext fun a => Fin.ext (by
    match a with
    | ⟨0, _⟩ => show 0 + 1 * p.val = p.val; omega
    | ⟨1, _⟩ => show 0 + 1 * q.val = q.val; omega
    | ⟨2, _⟩ => show 0 + 1 * i.val = i.val; omega)
  have e2 : Value.ix7_2 (r0_2.idx (ix3 p q i)) = ix2 q i := funext fun a => Fin.ext (by
    match a with
    | ⟨0, _⟩ => show 0 + 1 * q.val = q.val; omega
    | ⟨1, _⟩ => show 0 + 1 * i.val = i.val; omega)
  have e3 : Value.ix7_3 (r0_2.idx (ix3 p q i)) = ix2 p i := funext fun a => Fin.ext (by
    match a with
    | ⟨0, _⟩ => show 0 + 1 * p.val = p.val; omega
    | ⟨1, _⟩ => show 0 + 1 * i.val = i.val; omega)
  show FloatOps.addf (FloatOps.mulf (v1 (Value.ix7_0 (r0_2.idx (ix3 p q i)))) (v3 (Value.ix7_1 (r0_2.idx (ix3 p q i)))))
      (FloatOps.mulf (v0 (Value.ix7_2 (r0_2.idx (ix3 p q i)))) (v2 (Value.ix7_3 (r0_2.idx (ix3 p q i))))) = _
  rw [e0, e1, e2, e3]

end AnyFloats

/-! ## Over the extended reals -/

/-- The sum along the synapse axis, started from zero, at (p, q): the finite sum over the synapses. -/
theorem lane_sum (src : FVec Ideal S8x128x1024 .f32) (p : Fin 8) (q : Fin 128) :
    multiReduction .add [2] S8x128 src 0x00000000#32 reduces_S8x128x1024_S8x128 (.inl rfl) rfl (ix2 p q)
      = ∑ i : Fin 1024, src (ix3 p q i) := by
  refine (Ideal.multiReduction_add_single src 0x00000000#32 reduces_S8x128x1024_S8x128 (.inl rfl) rfl (ix2 p q)).trans ?_
  refine Finset.sum_congr rfl fun i _ => congrArg src (funext fun a => Fin.ext (by
    match a with
    | ⟨0, _⟩ => rfl
    | ⟨1, _⟩ => rfl
    | ⟨2, _⟩ => rfl))

/-- The second payload at a position. -/
theorem refractory_at (v15 v16 : Vec Ideal S8x128 .f32) (y : S8x128.Idx) :
    k0_pay2 v15 v16 y = γ * v16 y + v15 y := rfl

/-- The third payload at (p, q): one or zero as the summed currents, less the scaled refractory current and the
    threshold, reach the level or not. -/
theorem fire_at (v0 v1 : Vec Ideal S128x1024 .f32) (v2 : Vec Ideal S8x1024 .f32) (v3 : Vec Ideal S8x128x1024 .f32)
    (v15 v16 : Vec Ideal S8x128 .f32) (p : Fin 8) (q : Fin 128) :
    k0_pay3 v0 v1 v2 v3 v15 v16 (ix2 p q)
      = (((Ideal.cmp .oge ((∑ i : Fin 1024, (v1 (ix2 q i) * v3 (ix3 p q i) + v0 (ix2 q i) * v2 (ix2 p i)))
            - θ * (γ * v16 (ix2 p q) + v15 (ix2 p q)) - θ) level).toNat : ℝ) : EReal) := by
  have hsum : multiReduction .add [2] S8x128 (k0_pay1 v0 v1 v2 v3) 0x00000000#32 reduces_S8x128x1024_S8x128 (.inl rfl) rfl (ix2 p q)
      = ∑ i : Fin 1024, (v1 (ix2 q i) * v3 (ix3 p q i) + v0 (ix2 q i) * v2 (ix2 p i)) :=
    (lane_sum (k0_pay1 v0 v1 v2 v3) p q).trans (Finset.sum_congr rfl fun i _ => current_at v0 v1 v2 v3 p q i)
  have hflag : k0_pay3 v0 v1 v2 v3 v15 v16 (ix2 p q)
      = ((((Ideal.cmp .oge
          ((multiReduction .add [2] S8x128 (k0_pay1 v0 v1 v2 v3) 0x00000000#32 reduces_S8x128x1024_S8x128 (.inl rfl) rfl (ix2 p q))
            - θ * (γ * v16 (ix2 p q) + v15 (ix2 p q)) - θ) level).setWidth 32).toInt : ℝ) : EReal) := rfl
  rw [hflag, hsum]
  exact flag_signed_eq_unsigned _

/-! ## The blocks as pieces of the whole arrays

Stated for any blocks that hold, position by position, the whole arrays' entries of the inputs `B p` and the cells `J q`:
then the payloads at a position are the cell step's results at that input and cell. -/

section Blocks

variable (x : PerCell.Idx → EReal) (w ρ : PerSynapse.Idx → EReal) (z r : PerCell.Idx → EReal) (s : PerInputSynapse.Idx → EReal)
  (v0 v1 : Vec Ideal S128x1024 .f32) (v2 : Vec Ideal S8x1024 .f32) (v3 : Vec Ideal S8x128x1024 .f32)
  (v15 v16 : Vec Ideal S8x128 .f32) (B : Fin 8 → Fin 64) (J : Fin 128 → Fin 1024)

/-- The first payload at (p, q, i) is the new current of synapse `i` of cell `J q` for input `B p`. -/
theorem current_block (h0 : ∀ q i, v0 (ix2 q i) = w (ix2 (J q) i)) (h1 : ∀ q i, v1 (ix2 q i) = ρ (ix2 (J q) i))
    (h2 : ∀ p i, v2 (ix2 p i) = x (ix2 (B p) i)) (h3 : ∀ p q i, v3 (ix3 p q i) = s (ix3 (B p) (J q) i))
    (p : Fin 8) (q : Fin 128) (i : Fin 1024) :
    k0_pay1 v0 v1 v2 v3 (ix3 p q i) = currentAt x w ρ s (B p) (J q) i := by
  refine (current_at v0 v1 v2 v3 p q i).trans ?_
  show v1 (ix2 q i) * v3 (ix3 p q i) + v0 (ix2 q i) * v2 (ix2 p i) = _
  rw [h1, h3, h0, h2]
  rfl

/-- The second payload at (p, q) is the new refractory current of cell `J q` for input `B p`. -/
theorem refractory_block (h15 : ∀ p q, v15 (ix2 p q) = z (ix2 (B p) (J q))) (h16 : ∀ p q, v16 (ix2 p q) = r (ix2 (B p) (J q)))
    (p : Fin 8) (q : Fin 128) :
    k0_pay2 v15 v16 (ix2 p q) = refractory z r (ix2 (B p) (J q)) := by
  refine (refractory_at v15 v16 (ix2 p q)).trans ?_
  rw [h16, h15]
  rfl

/-- The third payload at (p, q) is whether cell `J q` fires for input `B p`. -/
theorem fire_block (h0 : ∀ q i, v0 (ix2 q i) = w (ix2 (J q) i)) (h1 : ∀ q i, v1 (ix2 q i) = ρ (ix2 (J q) i))
    (h2 : ∀ p i, v2 (ix2 p i) = x (ix2 (B p) i)) (h3 : ∀ p q i, v3 (ix3 p q i) = s (ix3 (B p) (J q) i))
    (h15 : ∀ p q, v15 (ix2 p q) = z (ix2 (B p) (J q))) (h16 : ∀ p q, v16 (ix2 p q) = r (ix2 (B p) (J q)))
    (p : Fin 8) (q : Fin 128) :
    k0_pay3 v0 v1 v2 v3 v15 v16 (ix2 p q) = fireAt x w ρ z r s (B p) (J q) := by
  refine (fire_at v0 v1 v2 v3 v15 v16 p q).trans ?_
  have hs : (∑ i : Fin 1024, (v1 (ix2 q i) * v3 (ix3 p q i) + v0 (ix2 q i) * v2 (ix2 p i)))
      = ∑ i : Fin 1024, currentAt x w ρ s (B p) (J q) i :=
    Finset.sum_congr rfl fun i _ => by rw [h1, h3, h0, h2]; rfl
  rw [hs, h16, h15]
  rfl

end Blocks

end Cert.KernelIdeal.CellBody

end
-- ==== Proof.CellBlocks.lean ====
/-
  From blocks to arrays. At every grid point each loaded block holds, position by position, the whole arrays'
  entries of the point's 8 inputs and 128 cells (`CellGrid.lean`), so what the body writes back there
  (`CellBody.lean`) is the point's block of the cell step's results (`Cell.lean`); the blocks of each result
  cover it, so after the run the three result arrays ARE the spikes, the synaptic currents and the refractory
  currents of the argument arrays.
-/
import proofs.«116201_j59399397704145_2_alg».proof.Proof.CellGrid
import proofs.«116201_j59399397704145_2_alg».proof.Proof.CellBody

noncomputable section

namespace Cert.KernelIdeal.CellValue

open Cert.KernelIdeal Cert.KernelIdeal.Gen Idealize.ShloMosaic Idealize.ShloMosaic.TcCoe Idealize.SL.Sem
open Idealize.ShloMosaic.ValueIdx Cert.Cell
open Idealize.ShloMosaic.Pipeline (Dat)

variable (m : (ℓ : Loc nD τ sig) → Buf (Elt Ideal) ℓ) (g : Dev nD → PrngReg)

/-! ## A loaded block at a position is the whole array at the position's input, cell and synapse -/

theorem blk0 (c : Dev nD) (t : Fin cfg0.N) (p : Fin 8) (i : Fin 1024) :
    iblk m c 0 t (ix2 p i) = V m c main_arg0 (ix2 (row t p) i) := by
  show V m c main_arg0 (((cfg0.win 0).blk t).view.emb (ix2 p i)) = _
  rw [emb0]

theorem blk1 (c : Dev nD) (t : Fin cfg0.N) (q : Fin 128) (i : Fin 1024) :
    iblk m c 1 t (ix2 q i) = V m c main_arg1 (ix2 (cell t q) i) := by
  show V m c main_arg1 (((cfg0.win 1).blk t).view.emb (ix2 q i)) = _
  rw [emb1]

theorem blk2 (c : Dev nD) (t : Fin cfg0.N) (q : Fin 128) (i : Fin 1024) :
    iblk m c 2 t (ix2 q i) = V m c main_arg2 (ix2 (cell t q) i) := by
  show V m c main_arg2 (((cfg0.win 2).blk t).view.emb (ix2 q i)) = _
  rw [emb2]

theorem blk3 (c : Dev nD) (t : Fin cfg0.N) (p : Fin 8) (q : Fin 128) :
    iblk m c 3 t (ix2 p q) = V m c main_arg3 (ix2 (row t p) (cell t q)) := by
  show V m c main_arg3 (((cfg0.win 3).blk t).view.emb (ix2 p q)) = _
  rw [emb3]

theorem blk4 (c : Dev nD) (t : Fin cfg0.N) (p : Fin 8) (q : Fin 128) (i : Fin 1024) :
    iblk m c 4 t (ix3 p q i) = V m c main_arg4 (ix3 (row t p) (cell t q) i) := by
  show V m c main_arg4 (((cfg0.win 4).blk t).view.emb (ix3 p q i)) = _
  rw [emb4]

theorem blk5 (c : Dev nD) (t : Fin cfg0.N) (p : Fin 8) (q : Fin 128) :
    iblk m c 5 t (ix2 p q) = V m c main_arg5 (ix2 (row t p) (cell t q)) := by
  show V m c main_arg5 (((cfg0.win 5).blk t).view.emb (ix2 p q)) = _
  rw [emb5]

/-! ## What each point writes back is its block of the results -/

/-- Point `t` writes back its block of the synaptic currents. -/
theorem flushed7_eq (c : Dev nD) (t : Fin cfg0.N) :
    (dats m 0 c).flushed 7 t = ((cfg0.win 7).blk t).view.read (Elt Ideal)
      (current (V m c main_arg0) (V m c main_arg1) (V m c main_arg2) (V m c main_arg4)) := by
  have key : ∀ y : S8x128x1024.Idx, out0_7 (iblk m c 0 t) (iblk m c 1 t) (iblk m c 2 t) (iblk m c 3 t) (iblk m c 4 t) (iblk m c 5 t) y
      = current (V m c main_arg0) (V m c main_arg1) (V m c main_arg2) (V m c main_arg4) (((cfg0.win 7).blk t).view.emb y) := by
    intro y
    obtain ⟨p, q, i, rfl⟩ : ∃ (p : Fin 8) (q : Fin 128) (i : Fin 1024), y = ix3 p q i := ⟨y 0, y 1, y 2, eq_ix3 y⟩
    refine (congrFun (CellBody.out7_eq (iblk m c 0 t) (iblk m c 1 t) (iblk m c 2 t) (iblk m c 3 t) (iblk m c 4 t) (iblk m c 5 t)) (ix3 p q i)).trans ?_
    rw [emb7, current_ix3]
    exact CellBody.current_block (V m c main_arg0) (V m c main_arg1) (V m c main_arg2) (V m c main_arg4)
      (iblk m c 1 t) (iblk m c 2 t) (iblk m c 0 t) (iblk m c 4 t) (row t) (cell t)
      (fun q i => blk1 m c t q i) (fun q i => blk2 m c t q i) (fun p i => blk0 m c t p i) (fun p q i => blk4 m c t p q i) p q i
  show (cfg0.win 7).cut (grid0.coords t) ((dats m 0 c).after 7 t) = _
  rw [after0_7]
  exact funext key

/-- Point `t` writes back its block of the refractory currents. -/
theorem flushed8_eq (c : Dev nD) (t : Fin cfg0.N) :
    (dats m 0 c).flushed 8 t = ((cfg0.win 8).blk t).view.read (Elt Ideal)
      (refractory (V m c main_arg3) (V m c main_arg5)) := by
  have key : ∀ y : S8x128.Idx, out0_8 (iblk m c 0 t) (iblk m c 1 t) (iblk m c 2 t) (iblk m c 3 t) (iblk m c 4 t) (iblk m c 5 t) y
      = refractory (V m c main_arg3) (V m c main_arg5) (((cfg0.win 8).blk t).view.emb y) := by
    intro y
    obtain ⟨p, q, rfl⟩ : ∃ (p : Fin 8) (q : Fin 128), y = ix2 p q := ⟨y 0, y 1, eq_ix2 y⟩
    refine (congrFun (CellBody.out8_eq (iblk m c 0 t) (iblk m c 1 t) (iblk m c 2 t) (iblk m c 3 t) (iblk m c 4 t) (iblk m c 5 t)) (ix2 p q)).trans ?_
    rw [emb8]
    exact CellBody.refractory_block (V m c main_arg3) (V m c main_arg5) (iblk m c 3 t) (iblk m c 5 t) (row t) (cell t)
      (fun p q => blk3 m c t p q) (fun p q => blk5 m c t p q) p q
  show (cfg0.win 8).cut (grid0.coords t) ((dats m 0 c).after 8 t) = _
  rw [after0_8]
  exact funext key

/-- Point `t` writes back its block of the spikes. -/
theorem flushed6_eq (c : Dev nD) (t : Fin cfg0.N) :
    (dats m 0 c).flushed 6 t = ((cfg0.win 6).blk t).view.read (Elt Ideal)
      (fire (V m c main_arg0) (V m c main_arg1) (V m c main_arg2) (V m c main_arg3) (V m c main_arg5) (V m c main_arg4)) := by
  have key : ∀ y : S8x128.Idx, out0_6 (iblk m c 0 t) (iblk m c 1 t) (iblk m c 2 t) (iblk m c 3 t) (iblk m c 4 t) (iblk m c 5 t) y
      = fire (V m c main_arg0) (V m c main_arg1) (V m c main_arg2) (V m c main_arg3) (V m c main_arg5) (V m c main_arg4)
          (((cfg0.win 6).blk t).view.emb y) := by
    intro y
    obtain ⟨p, q, rfl⟩ : ∃ (p : Fin 8) (q : Fin 128), y = ix2 p q := ⟨y 0, y 1, eq_ix2 y⟩
    refine (congrFun (CellBody.out6_eq (iblk m c 0 t) (iblk m c 1 t) (iblk m c 2 t) (iblk m c 3 t) (iblk m c 4 t) (iblk m c 5 t)) (ix2 p q)).trans ?_
    rw [emb6, fire_ix2]
    exact CellBody.fire_block (V m c main_arg0) (V m c main_arg1) (V m c main_arg2) (V m c main_arg3) (V m c main_arg5) (V m c main_arg4)
      (iblk m c 1 t) (iblk m c 2 t) (iblk m c 0 t) (iblk m c 4 t) (iblk m c 3 t) (iblk m c 5 t) (row t) (cell t)
      (fun q i => blk1 m c t q i) (fun q i => blk2 m c t q i) (fun p i => blk0 m c t p i) (fun p q i => blk4 m c t p q i)
      (fun p q => blk3 m c t p q) (fun p q => blk5 m c t p q) p q
  show (cfg0.win 6).cut (grid0.coords t) ((dats m 0 c).after 6 t) = _
  rw [after0_6]
  exact funext key

/-! ## The arrays after the run -/

theorem final6 (c : Dev nD) : (dats m 0 c).arrAt 6 cfg0.N
    = fire (V m c main_arg0) (V m c main_arg1) (V m c main_arg2) (V m c main_arg3) (V m c main_arg5) (V m c main_arg4) :=
  (dats m 0 c).arrAt_eq_of_cover 6 _ (fun t _ => flushed6_eq m c t) cover6

theorem final7 (c : Dev nD) : (dats m 0 c).arrAt 7 cfg0.N
    = current (V m c main_arg0) (V m c main_arg1) (V m c main_arg2) (V m c main_arg4) :=
  (dats m 0 c).arrAt_eq_of_cover 7 _ (fun t _ => flushed7_eq m c t) cover7

theorem final8 (c : Dev nD) : (dats m 0 c).arrAt 8 cfg0.N = refractory (V m c main_arg3) (V m c main_arg5) :=
  (dats m 0 c).arrAt_eq_of_cover 8 _ (fun t _ => flushed8_eq m c t) cover8

/-- Every weakly fair execution of the kernel ends with the three results at the spikes, the synaptic currents and the
    refractory currents of the argument arrays, and the arguments unchanged. -/
theorem run : θ_run defs (onTc (τ := τ) (main (F := Ideal))) ⟨m, fun _ => 0, g⟩ fun r => ∀ c : Dev nD,
      r.2.mem ((c : Thread nD τ).loc main_v0_0)
        = fire (m ((c : Thread nD τ).loc main_arg0)) (m ((c : Thread nD τ).loc main_arg1)) (m ((c : Thread nD τ).loc main_arg2))
            (m ((c : Thread nD τ).loc main_arg3)) (m ((c : Thread nD τ).loc main_arg5)) (m ((c : Thread nD τ).loc main_arg4))
      ∧ r.2.mem ((c : Thread nD τ).loc main_v0_1)
        = current (m ((c : Thread nD τ).loc main_arg0)) (m ((c : Thread nD τ).loc main_arg1)) (m ((c : Thread nD τ).loc main_arg2))
            (m ((c : Thread nD τ).loc main_arg4))
      ∧ r.2.mem ((c : Thread nD τ).loc main_v0_2)
        = refractory (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c),
      (h c).2.2.1.trans (final8 m c), (h c).2.2.2⟩)
    (Value.run_blocks m g)

end Cert.KernelIdeal.CellValue

end
-- ==== Proof.CellReference.lean ====
/-
  The plain program computes the cell step of `Cell.lean`: read one operation at a time, its three results are the
  synaptic currents, the refractory currents and the spikes of that file, index by index.

  The currents: the decay factors and the weights are spread over the batch and the inputs over the cells, so entry
  (b, j, i) multiplies ρ(j, i) with s(b, j, i) and w(j, i) with x(b, i). The refractory currents are pointwise. The
  potential is the sum of a cell's currents along the synapse axis, started from zero — and zero plus a sum is that
  sum —, less the scaled refractory current and the threshold; the spike is the outcome of its comparison with the
  level, read as an unsigned number.
-/
import proofs.«116201_j59399397704145_2_alg».proof.Proof.Gen.ReferenceIdeal.Read
import proofs.«116201_j59399397704145_2_alg».proof.Proof.Cell

noncomputable section

open scoped BigOperators

namespace Cert.ReferenceIdeal.CellValue

open Cert.ReferenceIdeal Cert.ReferenceIdeal.Gen Cert.ReferenceIdeal.Read Idealize.ShloMosaic Idealize.ShloMosaic.ValueIdx Cert.Cell

variable (x : Vec Ideal S64x1024 .f32) (w ρ : Vec Ideal S1024x1024 .f32) (z : Vec Ideal S64x1024 .f32)
  (s : Vec Ideal S64x1024x1024 .f32) (r : Vec Ideal S64x1024 .f32)

/-- The second result at (b, j, i) is the new current of synapse `i` of cell `j` for input `b`. -/
theorem current_at (b : Fin 64) (j i : Fin 1024) :
    val_main_v8 (F := Ideal) x w ρ s (ix3 b j i) = currentAt x w ρ s b j i := by
  rw [val_main_v8_apply, val_main_v2_apply, val_main_v1_apply, val_main_v0_apply, val_main_v7_apply, val_main_v5_apply,
    val_main_v3_apply, val_main_v6_apply, val_main_v4_apply]
  have e0 : idx_main_v0 (idx_main_v1 (ix3 b j i)) = ix2 j i :=
    funext fun a => Fin.ext (by match a with | ⟨0, _⟩ => rfl | ⟨1, _⟩ => rfl)
  have e1 : idx_main_v3 (idx_main_v5 (ix3 b j i)) = ix2 j i :=
    funext fun a => Fin.ext (by match a with | ⟨0, _⟩ => rfl | ⟨1, _⟩ => rfl)
  have e2 : idx_main_v4 (idx_main_v6 (ix3 b j i)) = ix2 b i :=
    funext fun a => Fin.ext (by match a with | ⟨0, _⟩ => rfl | ⟨1, _⟩ => rfl)
  rw [e0, e1, e2]
  rfl

/-- The second result is the array of synaptic currents. -/
theorem current_eq : val_main_v8 (F := Ideal) x w ρ s = current x w ρ s := by
  funext n
  obtain ⟨b, j, i, rfl⟩ : ∃ (b : Fin 64) (j i : Fin 1024), n = ix3 b j i := ⟨n 0, n 1, n 2, eq_ix3 n⟩
  exact current_at x w ρ s b j i

/-- The third result is the array of refractory currents. -/
theorem refractory_eq : val_main_v12 (F := Ideal) z r = refractory z r := by
  funext n
  rw [val_main_v12_apply, val_main_v11_apply, val_main_v10_apply, val_main_cst_0_apply]
  rfl

/-- The first result at (b, j) is whether cell `j` fires for input `b`. -/
theorem fire_at (b : Fin 64) (j : Fin 1024) :
    val_main_v20 (F := Ideal) x w ρ z s r (ix2 b j) = fireAt x w ρ z r s b j := by
  rw [val_main_v20_apply, val_main_v19_apply, val_main_v17_apply, val_main_v15_apply, val_main_v9_apply, val_main_v14_apply,
    val_main_v13_apply, val_main_cst_1_apply, val_main_v16_apply, val_main_cst_2_apply, val_main_v18_apply,
    val_main_cst_3_apply, val_main_cst_apply, refractory_eq]
  have hs : (∑ k : Fin 1024, val_main_v8 (F := Ideal) x w ρ s (idx_main_v9 (ix2 b j) k))
      = ∑ k : Fin 1024, currentAt x w ρ s b j k := by
    refine Finset.sum_congr rfl fun k _ => ?_
    have e : idx_main_v9 (ix2 b j) k = ix3 b j k :=
      funext fun a => Fin.ext (by match a with | ⟨0, _⟩ => rfl | ⟨1, _⟩ => rfl | ⟨2, _⟩ => rfl)
    rw [e, current_at]
  rw [hs]
  have h0 : (FloatOps.ofBits (F := Ideal) .f32 0x00000000#32 : EReal) + ∑ k : Fin 1024, currentAt x w ρ s b j k
      = ∑ k : Fin 1024, currentAt x w ρ s b j k := by
    rw [Ideal.ofBits_def, Ideal.ofBits_zero_f32, zero_add]
  rw [h0]
  rfl

/-- The first result is the array of spikes. -/
theorem fire_eq : val_main_v20 (F := Ideal) x w ρ z s r = fire x w ρ z r s := by
  funext n
  obtain ⟨b, j, rfl⟩ : ∃ (b : Fin 64) (j : Fin 1024), n = ix2 b j := ⟨n 0, n 1, eq_ix2 n⟩
  exact fire_at x w ρ z s r b j

end Cert.ReferenceIdeal.CellValue

end
-- ==== Proof.lean ====
/-
  One step of a layer of spiking cells, tiled over a grid, against the same step written plainly: equal, result by
  result and index by index, over the extended reals.

  Both programs take inputs x(b, i), weights w(j, i), per-synapse decay factors ρ(j, i), previous spikes z(b, j),
  synaptic currents s(b, j, i) and refractory currents r(b, j), for 64 inputs, 1024 cells and 1024 synapses, and
  return
      the new synaptic currents   I(b, j, i) = ρ(j, i) · s(b, j, i) + w(j, i) · x(b, i),
      the new refractory currents R(b, j)    = γ · r(b, j) + z(b, j),
      the spikes                  1 if (Σ_i I(b, j, i)) − θ · R(b, j) − θ ≥ 0, else 0
  (`Proof/Cell.lean`). The tiled program works on blocks of 8 inputs × 128 cells at 64 grid points and sums a block's
  currents along the synapse axis; the plain program spreads the small arrays to the full shape and sums the whole
  array along that axis. Over the extended reals each of these sums is the finite sum over the 1024 synapses, the
  blocks are restrictions of the whole arrays and together cover each result, and a one-bit outcome reads as the same
  number signed after widening as unsigned — so both programs compute the three functions above. No law is used that
  could fail at an infinity: the two sides are the same expression, term by term, so the inputs' finiteness is never
  opened.

  The kernel's side is `Proof/CellGrid.lean` (the tiling), `Proof/CellBody.lean` (a block position's value) and
  `Proof/CellBlocks.lean` (the arrays after the run); the plain program's side is `Proof/CellReference.lean`. Both
  kernel frames are the generated ones; the plain program's frame is its generated run with the results dropped. Reading
  the tiled program over the extended reals rewrites none of its operations, so there is nothing to preserve.
-/
import proofs.«116201_j59399397704145_2_alg».proof.Defs
import proofs.«116201_j59399397704145_2_alg».proof.Proof.Gen.Kernel
import proofs.«116201_j59399397704145_2_alg».proof.Proof.Gen.Kernel.Skeleton
import proofs.«116201_j59399397704145_2_alg».proof.Proof.Gen.Kernel.Launch
import proofs.«116201_j59399397704145_2_alg».proof.Proof.Gen.Kernel.Points
import proofs.«116201_j59399397704145_2_alg».proof.Proof.Gen.Kernel.Frame
import proofs.«116201_j59399397704145_2_alg».proof.Proof.Gen.KernelIdeal
import proofs.«116201_j59399397704145_2_alg».proof.Proof.Gen.KernelIdeal.Skeleton
import proofs.«116201_j59399397704145_2_alg».proof.Proof.Gen.KernelIdeal.Launch
import proofs.«116201_j59399397704145_2_alg».proof.Proof.Gen.KernelIdeal.Points
import proofs.«116201_j59399397704145_2_alg».proof.Proof.Gen.KernelIdeal.Frame
import proofs.«116201_j59399397704145_2_alg».proof.Proof.Gen.ReferenceIdeal
import proofs.«116201_j59399397704145_2_alg».proof.Proof.Gen.Pre_finite_inputs
import proofs.«116201_j59399397704145_2_alg».proof.Proof.Gen.KernelIdeal.Value
import proofs.«116201_j59399397704145_2_alg».proof.Proof.Gen.ReferenceIdeal.Run
import proofs.«116201_j59399397704145_2_alg».proof.Proof.Gen.ReferenceIdeal.Read
import proofs.«116201_j59399397704145_2_alg».proof.Proof.CellBlocks
import proofs.«116201_j59399397704145_2_alg».proof.Proof.CellReference
import Idealize.ShloMosaic.Adequacy
import Idealize.ShloMosaic.Init

noncomputable section

namespace Cert.Proof

open Idealize.ShloMosaic Idealize.SL.Sem

/-- The tiled program, as printed, runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The plain program runs and leaves its arguments alone: its run, with what it says of the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the six arguments, both programs end with the spikes, the synaptic currents and the
    refractory currents of those arguments. -/
theorem algebraic : Cert.algebraic_KernelIdeal_ReferenceIdeal := by
  intro m g m' g' _ hagree
  refine ⟨_, _, _, Cert.KernelIdeal.CellValue.run m g, ?_⟩
  refine (θ_run Cert.ReferenceIdeal.defs _ _).mono (fun _ h c => ?_) (Cert.ReferenceIdeal.Value.run (F := Ideal) m' g')
  obtain ⟨a0, a1, a2, a3, a4, a5⟩ := hagree c
  refine ⟨(h c).1.trans ?_, (h c).2.1.trans ?_, (h c).2.2.1.trans ?_, (h c).2.2.2⟩
  · rw [Cert.ReferenceIdeal.Read.val_main_v20_eq, Cert.ReferenceIdeal.CellValue.fire_eq, a0, a1, a2, a3, a4, a5]
  · rw [Cert.ReferenceIdeal.Read.val_main_v8_eq, Cert.ReferenceIdeal.CellValue.current_eq, a0, a1, a2, a4]
  · rw [Cert.ReferenceIdeal.Read.val_main_v12_eq, Cert.ReferenceIdeal.CellValue.refractory_eq, a3, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
